-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S1x192 : Shape := ⟨2, ![1, 192]⟩
abbrev S800000 : Shape := ⟨1, ![800000]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S1x192 : S_.BroadcastsInDim S1x192 (![] : Fin 0 → Fin S1x192.rank)
  reducesTo_S1x192_S_d0_1 : S1x192.ReducesTo [0, 1] S_

variable [Facts]

def fn {F : FTy → Type} [FloatOps F] (main_arg0 : FVec F S50000x96 .f32) (main_arg1 : FVec F S50000x96 .f32) (main_arg2 : FVec F S1x192 .f32) (main_arg3 : IVec S800000 32) (main_arg4 : IVec S800000 32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S50000x96 .f32 := Host.absf main_arg1
  let main_cst_0 : FVec F S_ .f32 := constant S_ .f32 0x7F800000#32
  let main_v5 : FVec F S50000x96 .f32 := broadcastInDim S50000x96 ![] bcast_S_S50000x96 main_cst_0
  let main_v6 : IVec S50000x96 1 := cmpf .olt main_v4 main_v5
  let main_c_1 : IVec S_ 1 := constantI S_ 1 1#1
  let main_v7 : IVec S_ 1 := (fun x v => Host.reduce IntOp.andi x v reducesTo_S50000x96_S_d0_1 h_S_) main_v6 main_c_1
  let main_v8 : IVec S_ 1 := andi main_v3 main_v7
  let main_v9 : FVec F S1x192 .f32 := Host.absf main_arg2
  let main_cst_2 : FVec F S_ .f32 := constant S_ .f32 0x7F800000#32
  let main_v10 : FVec F S1x192 .f32 := broadcastInDim S1x192 ![] bcast_S_S1x192 main_cst_2
  let main_v11 : IVec S1x192 1 := cmpf .olt main_v9 main_v10
  let main_c_3 : IVec S_ 1 := constantI S_ 1 1#1
  let main_v12 : IVec S_ 1 := (fun x v => Host.reduce IntOp.andi x v reducesTo_S1x192_S_d0_1 h_S_) main_v11 main_c_3
  let main_v13 : IVec S_ 1 := andi main_v8 main_v12
  main_v13
-- ==== Kernel.lean ====
abbrev S50000x96 : Shape := ⟨2, ![50000, 96]⟩
abbrev S1x192 : Shape := ⟨2, ![1, 192]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x96 : Shape := ⟨2, ![800000, 96]⟩
abbrev S1x96 : Shape := ⟨2, ![1, 96]⟩
abbrev S5000x96 : Shape := ⟨2, ![5000, 96]⟩
abbrev S5000x1 : Shape := ⟨2, ![5000, 1]⟩
abbrev S5000 : Shape := ⟨1, ![5000]⟩

abbrev nBuf : Space → Nat
  | .hbm => 38
  | .vmem => 12
  | .smem => 0
  | _ => 0

abbrev bufTy : (tb : Table) → Fin (tcTables nBuf tb) → BufTy
  | .hbm, ⟨0, _⟩ => ⟨S50000x96, .f32⟩
  | .hbm, ⟨1, _⟩ => ⟨S50000x96, .f32⟩
  | .hbm, ⟨2, _⟩ => ⟨S1x192, .f32⟩
  | .hbm, ⟨3, _⟩ => ⟨S800000, .i32⟩
  | .hbm, ⟨4, _⟩ => ⟨S800000, .i32⟩
  | .hbm, ⟨5, _⟩ => ⟨S_, .i32⟩
  | .hbm, ⟨6, _⟩ => ⟨S800000, .i32⟩
  | .hbm, ⟨7, _⟩ => ⟨S_, .i32⟩
  | .hbm, ⟨8, _⟩ => ⟨S50000, .i32⟩
  | .hbm, ⟨9, _⟩ => ⟨S800000x1, .i32⟩
  | .hbm, ⟨10, _⟩ => ⟨S50000, .i32⟩
  | .hbm, ⟨11, _⟩ => ⟨S50000, .f32⟩
  | .hbm, ⟨12, _⟩ => ⟨S_, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000x1, .f32⟩
  | .hbm, ⟨20, _⟩ => ⟨S50000x96, .f32⟩
  | .hbm, ⟨21, _⟩ => ⟨S50000x96, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x96, .f32⟩
  | .hbm, ⟨31, _⟩ => ⟨S_, .f32⟩
  | .hbm, ⟨32, _⟩ => ⟨S50000x96, .f32⟩
  | .hbm, ⟨33, _⟩ => ⟨S800000x1, .i32⟩
  | .hbm, ⟨34, _⟩ => ⟨S50000x96, .f32⟩
  | .hbm, ⟨35, _⟩ => ⟨S1x96, .f32⟩
  | .hbm, ⟨36, _⟩ => ⟨S1x96, .f32⟩
  | .hbm, ⟨37, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S5000x1, .f32⟩
  | .local _ .vmem, ⟨5, _⟩ => ⟨S5000x1, .f32⟩
  | .local _ .vmem, ⟨6, _⟩ => ⟨S5000x96, .f32⟩
  | .local _ .vmem, ⟨7, _⟩ => ⟨S5000x96, .f32⟩
  | .local _ .vmem, ⟨8, _⟩ => ⟨S1x96, .f32⟩
  | .local _ .vmem, ⟨9, _⟩ => ⟨S1x96, .f32⟩
  | .local _ .vmem, ⟨10, _⟩ => ⟨S5000x96, .f32⟩
  | .local _ .vmem, ⟨11, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S_S50000x96 : S_.BroadcastsInDim S50000x96 (![] : Fin 0 → Fin S50000x96.rank)
  slices_S1x192_S1x96_0_0 : S1x192.Slices ![0, 0] S1x96
  slices_S1x192_S1x96_0_96 : S1x192.Slices ![0, 96] S1x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x96 : S5000x1.Broadcasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  reduces_S5000x96_S5000 : S5000x96.Reduces [1] S5000
  shapeCasts_S5000_S5000x1 : S5000.ShapeCasts S5000x1
  scatter_S50000_S800000x1_S800000_n_0_0_1_wf : ScatterDims.WF S50000 S800000x1 S800000 [] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S50000x96.size a
  hwx0_3 : ∀ i : grid0.Coords, EltTy.bits .f32 = 32 ∨ (Rect.block (s := S50000x96) S5000x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x96.size a ≤ S1x96.size a
  hwx0_4 : ∀ i : grid0.Coords, EltTy.bits .f32 = 32 ∨ (Rect.block (s := S1x96) S1x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x96.size a ≤ S1x96.size a
  hwx0_5 : ∀ i : grid0.Coords, EltTy.bits .f32 = 32 ∨ (Rect.block (s := S1x96) S1x96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x96.size a ≤ S50000x96.size a
  hwx0_6 : ∀ i : grid0.Coords, EltTy.bits .f32 = 32 ∨ (Rect.block (s := S50000x96) S5000x96.size (cc0_transform_6 i) (hinb0_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S5000x96.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x96.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x96 : Shape := ⟨2, ![50000, 96]⟩
abbrev S1x192 : Shape := ⟨2, ![1, 192]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x96 : Shape := ⟨2, ![800000, 96]⟩
abbrev S50000x192 : Shape := ⟨2, ![50000, 192]⟩
abbrev S192x1 : Shape := ⟨2, ![192, 1]⟩

abbrev nBuf : Space → Nat
  | .hbm => 50
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S50000x96, .f32⟩
  | .hbm, ⟨2, _⟩ => ⟨S1x192, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S50000x96, .f32⟩
  | .hbm, ⟨20, _⟩ => ⟨S50000x96, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x96, .f32⟩
  | .hbm, ⟨30, _⟩ => ⟨S_, .f32⟩
  | .hbm, ⟨31, _⟩ => ⟨S50000x96, .f32⟩
  | .hbm, ⟨32, _⟩ => ⟨S800000x1, .i32⟩
  | .hbm, ⟨33, _⟩ => ⟨S50000x96, .f32⟩
  | .hbm, ⟨34, _⟩ => ⟨S50000x96, .f32⟩
  | .hbm, ⟨35, _⟩ => ⟨S50000x96, .f32⟩
  | .hbm, ⟨36, _⟩ => ⟨S50000x192, .f32⟩
  | .hbm, ⟨37, _⟩ => ⟨S192x1, .f32⟩
  | .hbm, ⟨38, _⟩ => ⟨S50000x1, .f32⟩
  | .hbm, ⟨39, _⟩ => ⟨S50000x1, .f32⟩
  | .hbm, ⟨40, _⟩ => ⟨S50000x1, .f32⟩
  | .hbm, ⟨41, _⟩ => ⟨S_, .f32⟩
  | .hbm, ⟨42, _⟩ => ⟨S50000x1, .f32⟩
  | .hbm, ⟨43, _⟩ => ⟨S50000x1, .f32⟩
  | .hbm, ⟨44, _⟩ => ⟨S_, .f32⟩
  | .hbm, ⟨45, _⟩ => ⟨S50000x1, .f32⟩
  | .hbm, ⟨46, _⟩ => ⟨S50000x1, .f32⟩
  | .hbm, ⟨47, _⟩ => ⟨S50000x96, .f32⟩
  | .hbm, ⟨48, _⟩ => ⟨S50000x96, .f32⟩
  | .hbm, ⟨49, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S_S50000x96 : S_.BroadcastsInDim S50000x96 (![] : Fin 0 → Fin S50000x96.rank)
  concatenates_S50000x96_S50000x96_S50000x192_d1 : Shape.Concatenates [S50000x96, S50000x96] S50000x192 1
  transposes_S1x192_S192x1_1_0 : S1x192.Transposes [1, 0] S192x1
  bcast_S_S50000x1 : S_.BroadcastsInDim S50000x1 (![] : Fin 0 → Fin S50000x1.rank)
  scatter_S50000_S800000x1_S800000_n_0_0_1_wf : ScatterDims.WF S50000 S800000x1 S800000 [] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x192_S192x1_S50000x1_1_0_0_1_n_n_wf : DotDims.WF S50000x192 S192x1 S50000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x192_S192x1_S50000x1_1_0_0_1_n_n : DotDims S50000x192 S192x1 S50000x1 where
  lhsContracting := [1]
  rhsContracting := [0]
  lhsNonContracting := [0]
  rhsNonContracting := [1]
  lhsBatch := []
  rhsBatch := []
  wf := dot_S50000x192_S192x1_S50000x1_1_0_0_1_n_n_wf

class Facts : Prop extends Facts₀ where

variable [Facts]
-- ==== Proof.GateSpec.lean ====
/-
  The function both programs compute, over the extended reals.

  For node `r` with feature row `feat r`, aggregated row `h r` and degree scale `nrm r` the layer forms the
  scaled aggregate `h r · nrm r`, the gate logit
      ∑ₗ feat r l · a₁ l  +  ∑ₗ (h r l · nrm r) · a₂ l        (l over the 96 features),
  and returns  logistic(logit) · (h r q · nrm r) + init r q  at column `q`.  The weight row has 192 entries: `a₁` is
  its first half and `a₂` its second half.  A contraction of the concatenated row `[feat r | h r · nrm r]` with the
  whole weight row is the same logit: a sum over 192 indices is the sum over its two halves, which holds in any
  commutative additive monoid and so for the extended reals, with no finiteness needed.
-/
import Idealize.ShloMosaic.PureOps.Ideal
import Idealize.ShloMosaic.Lib.ValueIdx

noncomputable section

namespace Cert.GateSpec

open Idealize.ShloMosaic Idealize.ShloMosaic.ValueIdx

/-- Node rows by features. -/
abbrev SNodes : Shape := ⟨2, ![50000, 96]⟩
/-- One value per node, kept as a column. -/
abbrev SCol : Shape := ⟨2, ![50000, 1]⟩
/-- Half of the weight row. -/
abbrev SHalf : Shape := ⟨2, ![1, 96]⟩
/-- The weight row. -/
abbrev SWeights : Shape := ⟨2, ![1, 192]⟩

/-- Feature `l` as a position in the first half of the weight row. -/
def lo (l : Fin 96) : Fin 192 := ⟨l.val, by omega⟩
/-- Feature `l` as a position in the second half of the weight row. -/
def hi (l : Fin 96) : Fin 192 := ⟨96 + l.val, by omega⟩

/-- The first half of the weight row. -/
def aLo (a : SWeights.Idx → EReal) : SHalf.Idx → EReal :=
  fun j => a (ix2 (0 : Fin 1) (lo ⟨(j 1).val, (j 1).isLt⟩))
/-- The second half of the weight row. -/
def aHi (a : SWeights.Idx → EReal) : SHalf.Idx → EReal :=
  fun j => a (ix2 (0 : Fin 1) (hi ⟨(j 1).val, (j 1).isLt⟩))

theorem aLo_ix2 (a : SWeights.Idx → EReal) (z : Fin 1) (l : Fin 96) : aLo a (ix2 z l) = a (ix2 (0 : Fin 1) (lo l)) := rfl
theorem aHi_ix2 (a : SWeights.Idx → EReal) (z : Fin 1) (l : Fin 96) : aHi a (ix2 z l) = a (ix2 (0 : Fin 1) (hi l)) := rfl

/-- The gate logit of node `r`. -/
def logit (feat h : SNodes.Idx → EReal) (nrm : SCol.Idx → EReal) (a1 a2 : SHalf.Idx → EReal) (r : Fin 50000) : EReal :=
  (∑ l : Fin 96, feat (ix2 r l) * a1 (ix2 (0 : Fin 1) l))
    + ∑ l : Fin 96, h (ix2 r l) * nrm (ix2 r (0 : Fin 1)) * a2 (ix2 (0 : Fin 1) l)

/-- The layer's result at node `r`, column `q`. -/
def gateAt (feat h : SNodes.Idx → EReal) (nrm : SCol.Idx → EReal) (init : SNodes.Idx → EReal) (a1 a2 : SHalf.Idx → EReal)
    (r : Fin 50000) (q : Fin 96) : EReal :=
  Ideal.logistic (logit feat h nrm a1 a2 r) * (h (ix2 r q) * nrm (ix2 r (0 : Fin 1))) + init (ix2 r q)

/-- The layer's result as one array. -/
def gate (feat h : SNodes.Idx → EReal) (nrm : SCol.Idx → EReal) (init : SNodes.Idx → EReal) (a1 a2 : SHalf.Idx → EReal) :
    SNodes.Idx → EReal :=
  fun i => gateAt feat h nrm init a1 a2 ⟨(i 0).val, (i 0).isLt⟩ ⟨(i 1).val, (i 1).isLt⟩

theorem gate_ix2 (feat h : SNodes.Idx → EReal) (nrm : SCol.Idx → EReal) (init : SNodes.Idx → EReal) (a1 a2 : SHalf.Idx → EReal)
    (r : Fin 50000) (q : Fin 96) : gate feat h nrm init a1 a2 (ix2 r q) = gateAt feat h nrm init a1 a2 r q := rfl

/-- A sum over the 192 positions of the weight row is the sum over its first half plus the sum over its second half. -/
theorem sum_halves {M : Type} [AddCommMonoid M] (f : Fin 192 → M) :
    ∑ k : Fin 192, f k = (∑ l : Fin 96, f (lo l)) + ∑ l : Fin 96, f (hi l) :=
  Fin.sum_univ_add (a := 96) (b := 96) f

end Cert.GateSpec

end
-- ==== Proof.RefGate.lean ====
/-
  The reference program's result, read index by index, is the layer function of GateSpec.

  Going down from the result: it is the gated scaled aggregate plus the initial features; the gate of node `r` is one
  over one plus the exponential of the negated logit, which is the logistic function of the logit by that function's
  definition; the logit is the contraction, over the 192 positions of the weight row, of the joined row
  `[feat r | h r · nrm r]` with the weight row. A position in the first half of the joined row reads the feature row
  and a position in the second half reads the scaled aggregate, so the contraction, split into its two halves, is the
  sum of the two 96-term sums of the specification. The aggregated rows `h` and the degree scale `nrm` are carried
  as they are: nothing here depends on how they are computed.
-/
import proofs.«154453_j26834955666032_2_alg».proof.Proof.Gen.ReferenceIdeal.Read
import proofs.«154453_j26834955666032_2_alg».proof.Proof.GateSpec
import Idealize.ShloMosaic.Lib.IdealHost
noncomputable section
namespace Cert.ReferenceIdeal.RefGate
open Cert.ReferenceIdeal Cert.ReferenceIdeal.Gen Idealize.ShloMosaic Idealize.ShloMosaic.ValueIdx

/-- Node rows by features, as the reference program types them. -/
abbrev Nodes : Type := (⟨S50000x96, .f32⟩ : BufTy).Contents (Elt Ideal)
/-- The weight row, as the reference program types it. -/
abbrev Weights : Type := (⟨S1x192, .f32⟩ : BufTy).Contents (Elt Ideal)
/-- An edge list's end points, as the reference program types them. -/
abbrev Edges : Type := (⟨S800000, .i32⟩ : BufTy).Contents (Elt Ideal)

/-- The scaled aggregate at node `r`, column `q`: the aggregated row's entry times the node's degree scale. -/
theorem scaled_at (x0 : Nodes) (x3 x4 : Edges) (r : Fin 50000) (q : Fin 96) :
    Read.val_main_v21 (F := Ideal) x0 x3 x4 (ix2 r q)
      = Read.val_main_v19 (F := Ideal) x0 x3 x4 (ix2 r q) * Read.val_main_v7 (F := Ideal) x4 (ix2 r (0 : Fin 1)) := by
  rw [Read.val_main_v21_apply, Read.val_main_v20_apply, Ideal.mulf_def]
  have e : Read.idx_main_v20 (ix2 r q) = ix2 r (0 : Fin 1) := by
    funext a; match a with | ⟨0, _⟩ => rfl | ⟨1, _⟩ => rfl
  rw [e]

/-- The joined row at a position of its first half is the feature row's entry. -/
theorem joined_lo (x0 : Nodes) (x3 x4 : Edges) (r : Fin 50000) (l : Fin 96) :
    Read.val_main_v22 (F := Ideal) x0 x3 x4 (ix2 r (Cert.GateSpec.lo l)) = x0 (ix2 r l) := by
  unfold Read.val_main_v22
  generalize Read.val_main_v21 (F := Ideal) x0 x3 x4 = y
  exact concatenate_pair_apply_left (1 : Fin S50000x192.rank) x0 y concatenates_S50000x96_S50000x96_S50000x192_d1
    (ix2 r (Cert.GateSpec.lo l)) rfl (ix2 r l) (fun b => match b with
      | ⟨0, _⟩ => rfl
      | ⟨1, _⟩ => rfl)

/-- The joined row at a position of its second half is the scaled aggregate's entry. -/
theorem joined_hi (x0 : Nodes) (x3 x4 : Edges) (r : Fin 50000) (l : Fin 96) :
    Read.val_main_v22 (F := Ideal) x0 x3 x4 (ix2 r (Cert.GateSpec.hi l)) = Read.val_main_v21 (F := Ideal) x0 x3 x4 (ix2 r l) := by
  unfold Read.val_main_v22
  generalize Read.val_main_v21 (F := Ideal) x0 x3 x4 = y
  exact concatenate_pair_apply_right (1 : Fin S50000x192.rank) x0 y concatenates_S50000x96_S50000x96_S50000x192_d1
    (ix2 r (Cert.GateSpec.hi l)) rfl rfl (ix2 r l) (fun b => match b with
      | ⟨0, _⟩ => fun _ => rfl
      | ⟨1, _⟩ => fun hb => absurd rfl hb)
    (show l.val + 96 = 96 + l.val from Nat.add_comm _ _)

/-- The transposed weight row at position `k` is the weight row's entry `k`. -/
theorem weights_at (x2 : Weights) (k : Fin 192) :
    Read.val_main_v23 (F := Ideal) x2 (ix2 k (0 : Fin 1)) = x2 (ix2 (0 : Fin 1) k) := by
  rw [Read.val_main_v23_apply]
  have e : Read.idx_main_v23 (ix2 k (0 : Fin 1)) = ix2 (0 : Fin 1) k := by
    funext a; match a with | ⟨0, _⟩ => rfl | ⟨1, _⟩ => rfl
  rw [e]

/-- The contraction of the joined row with the weight row is the gate logit: the sum over the 192 positions splits
    into its two halves, the first read from the feature row and the second from the scaled aggregate. -/
theorem logit_at (x0 : Nodes) (x2 : Weights) (x3 x4 : Edges) (r : Fin 50000) :
    Read.val_main_v24 (F := Ideal) x0 x2 x3 x4 (ix2 r (0 : Fin 1))
      = Cert.GateSpec.logit x0 (Read.val_main_v19 (F := Ideal) x0 x3 x4) (Read.val_main_v7 (F := Ideal) x4)
          (Cert.GateSpec.aLo x2) (Cert.GateSpec.aHi x2) r := by
  rw [Read.val_main_v24_apply]
  have el : ∀ k : Fin 192, Read.lidx_main_v24 (ix2 r (0 : Fin 1)) k = ix2 r k := fun k => by
    funext a; match a with | ⟨0, _⟩ => rfl | ⟨1, _⟩ => rfl
  have er : ∀ k : Fin 192, Read.ridx_main_v24 (ix2 r (0 : Fin 1)) k = ix2 k (0 : Fin 1) := fun k => by
    funext a; match a with | ⟨0, _⟩ => rfl | ⟨1, _⟩ => rfl
  refine (Finset.sum_congr rfl fun k _ => by rw [el k, er k, weights_at]).trans ?_
  rw [Cert.GateSpec.sum_halves]
  unfold Cert.GateSpec.logit
  refine congrArg₂ (· + ·) ?_ ?_
  · refine Finset.sum_congr rfl fun l _ => ?_
    rw [joined_lo, Cert.GateSpec.aLo_ix2]
  · refine Finset.sum_congr rfl fun l _ => ?_
    rw [joined_hi, scaled_at, Cert.GateSpec.aHi_ix2]

/-- The gate of node `r`: one over one plus the exponential of the negated logit, which is the logistic function of
    the logit by that function's definition. -/
theorem gate_value_at (x0 : Nodes) (x2 : Weights) (x3 x4 : Edges) (r : Fin 50000) :
    Read.val_main_v30 (F := Ideal) x0 x2 x3 x4 (ix2 r (0 : Fin 1))
      = Ideal.logistic (Cert.GateSpec.logit x0 (Read.val_main_v19 (F := Ideal) x0 x3 x4) (Read.val_main_v7 (F := Ideal) x4)
          (Cert.GateSpec.aLo x2) (Cert.GateSpec.aHi x2) r) := by
  rw [Read.val_main_v30_apply, Read.val_main_v29_apply, Read.val_main_cst_6_apply,
    Read.val_main_v28_apply, Read.val_main_v27_apply, Read.val_main_cst_5_apply,
    Read.val_main_v26_apply, Read.val_main_v25_apply, logit_at]
  generalize Cert.GateSpec.logit x0 (Read.val_main_v19 (F := Ideal) x0 x3 x4) (Read.val_main_v7 (F := Ideal) x4)
          (Cert.GateSpec.aLo x2) (Cert.GateSpec.aHi x2) r = L
  rw [Ideal.ofBits_def, Ideal.ofBits_one_f32, Ideal.hostDivf_def, Ideal.addf_def, Ideal.hostUnary_exp_def,
    Ideal.hostNegf_def, Ideal.negf_def]
  rfl

theorem ref_is_gate (x0 x1 : (⟨S50000x96, .f32⟩ : BufTy).Contents (Elt Ideal)) (x2 : (⟨S1x192, .f32⟩ : BufTy).Contents (Elt Ideal))
    (x3 x4 : (⟨S800000, .i32⟩ : BufTy).Contents (Elt Ideal)) :
    Read.val_main_v33 (F := Ideal) x0 x1 x2 x3 x4
      = Cert.GateSpec.gate x0 (Read.val_main_v19 (F := Ideal) x0 x3 x4) (Read.val_main_v7 (F := Ideal) x4) x1
          (Cert.GateSpec.aLo x2) (Cert.GateSpec.aHi x2) := by
  funext i
  obtain ⟨r, q, rfl⟩ : ∃ (r : Fin 50000) (q : Fin 96), i = ix2 r q := ⟨i 0, i 1, eq_ix2 i⟩
  rw [Cert.GateSpec.gate_ix2]
  unfold Cert.GateSpec.gateAt
  have e : Read.idx_main_v31 (ix2 r q) = ix2 r (0 : Fin 1) := by
    funext a; match a with | ⟨0, _⟩ => rfl | ⟨1, _⟩ => rfl
  rw [Read.val_main_v33_apply, Read.val_main_v32_apply, Read.val_main_v31_apply, Ideal.addf_def, Ideal.mulf_def,
    e, gate_value_at, scaled_at]

end Cert.ReferenceIdeal.RefGate

end
-- ==== Proof.KernelBlock.lean ====
/-
  One grid point of the kernel, at the ideal instance.

  The body loads a block of 5000 node rows of the features `P0`, of the aggregated rows `P2`, of the degree scale
  `P3` (a column) and of the residual `P5`, and both halves `P1`, `P4` of the weight row.  Over the extended reals the
  two lane reductions are plain sums over the 96 features, so the value stored at row `y0`, column `y1` of the block is
      logistic(∑ₗ P0 y0 l · P1 l + ∑ₗ (P2 y0 l · P3 y0) · P4 l) · (P2 y0 y1 · P3 y0) + P5 y0 y1.
-/
import proofs.«154453_j26834955666032_2_alg».proof.Proof.Gen.KernelIdeal.Value
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## Where the block index reads each operand -/

theorem ix6_0_ix2 (y0 : Fin 5000) (y1 : Fin 96) : Value.ix6_0 (ix2 y0 y1) = ix1 y0 := by
  funext a; match a with | ⟨0, _⟩ => rfl
theorem ix6_1_ix2 (y0 : Fin 5000) (y1 : Fin 96) : Value.ix6_1 (ix2 y0 y1) = ix1 y0 := by
  funext a; match a with | ⟨0, _⟩ => rfl
theorem ix6_2_ix2 (y0 : Fin 5000) (y1 : Fin 96) : Value.ix6_2 (ix2 y0 y1) = ix2 y0 y1 := by
  funext a; match a with | ⟨0, _⟩ => rfl | ⟨1, _⟩ => rfl
theorem ix6_3_ix2 (y0 : Fin 5000) (y1 : Fin 96) : Value.ix6_3 (ix2 y0 y1) = ix2 y0 (0 : Fin 1) := by
  funext a; match a with | ⟨0, _⟩ => rfl | ⟨1, _⟩ => rfl
theorem ix6_4_ix2 (y0 : Fin 5000) (y1 : Fin 96) : Value.ix6_4 (ix2 y0 y1) = ix2 y0 y1 := by
  funext a; match a with | ⟨0, _⟩ => rfl | ⟨1, _⟩ => rfl

/-! ## The two broadcasts, read at an index -/

/-- Half of the weight row laid along every node row: at `(y0, l)` it is the half's entry `l`. -/
theorem rowBroadcast_at (P : Vec Ideal S1x96 .f32) (y0 : Fin 5000) (l : Fin 96) :
    broadcastTo S5000x96 (shapeCast S1x96 P shapeCasts_S1x96_S1x96) broadcasts_S1x96_S5000x96 (ix2 y0 l)
      = P (ix2 (0 : Fin 1) l) := by
  rw [shapeCast_self]
  exact broadcastTo_apply P broadcasts_S1x96_S5000x96 (ix2 y0 l) (ix2 (0 : Fin 1) l) (fun a => match a with
    | ⟨0, _⟩ => by show (0 : Nat) = (if (1 : Nat) = 1 then 0 else y0.val); rw [if_pos rfl]
    | ⟨1, _⟩ => by show l.val = (if (96 : Nat) = 1 then 0 else l.val); rw [if_neg (by decide)])

/-- The degree scale, one value per node, laid along the features: at `(y0, l)` it is node `y0`'s value. -/
theorem colBroadcast_at (P : Vec Ideal S5000x1 .f32) (y0 : Fin 5000) (l : Fin 96) :
    broadcastTo S5000x96 (shapeCast S5000x1 P shapeCasts_S5000x1_S5000x1) broadcasts_S5000x1_S5000x96 (ix2 y0 l)
      = P (ix2 y0 (0 : Fin 1)) := by
  rw [shapeCast_self]
  exact broadcastTo_apply P broadcasts_S5000x1_S5000x96 (ix2 y0 l) (ix2 y0 (0 : Fin 1)) (fun a => match a with
    | ⟨0, _⟩ => by show y0.val = (if (5000 : Nat) = 1 then 0 else y0.val); rw [if_neg (by decide)]
    | ⟨1, _⟩ => by show (0 : Nat) = (if (1 : Nat) = 1 then 0 else l.val); rw [if_pos rfl])

/-- The index over row `y0` with feature `l` inserted on the reduced axis. -/
theorem lift_row (y0 : Fin 5000) (l : Fin 96) :
    reduces_S5000x96_S5000.lift (ix1 y0) l = ix2 y0 l := by
  funext a; apply Fin.ext; match a with | ⟨0, _⟩ => rfl | ⟨1, _⟩ => rfl

/-! ## The two lane sums -/

/-- The features' part of the logit: the lane sum of `P0 · P1` on row `y0`. -/
theorem featSum_at (P0 : Vec Ideal S5000x96 .f32) (P1 : Vec Ideal S1x96 .f32) (y0 : Fin 5000) :
    multiReduction (F := Ideal) .add [1] S5000 (mulf P0 (broadcastTo S5000x96 (shapeCast S1x96 P1 shapeCasts_S1x96_S1x96) broadcasts_S1x96_S5000x96))
        0x00000000#32 reduces_S5000x96_S5000 (.inl rfl) rfl (ix1 y0)
      = ∑ l : Fin 96, P0 (ix2 y0 l) * P1 (ix2 (0 : Fin 1) l) := by
  refine (Ideal.multiReduction_add_single _ _ reduces_S5000x96_S5000 (.inl rfl) rfl (ix1 y0)).trans ?_
  show ∑ l : Fin 96, _ = _
  refine Finset.sum_congr rfl fun l _ => ?_
  rw [lift_row]
  show P0 (ix2 y0 l) * broadcastTo S5000x96 (shapeCast S1x96 P1 shapeCasts_S1x96_S1x96) broadcasts_S1x96_S5000x96 (ix2 y0 l) = _
  rw [rowBroadcast_at]

/-- The aggregate's part of the logit: the lane sum of `(P2 · P3) · P4` on row `y0`. -/
theorem aggSum_at (P2 : Vec Ideal S5000x96 .f32) (P3 : Vec Ideal S5000x1 .f32) (P4 : Vec Ideal S1x96 .f32) (y0 : Fin 5000) :
    multiReduction (F := Ideal) .add [1] S5000
        (mulf (mulf (shapeCast S5000x96 P2 shapeCasts_S5000x96_S5000x96)
            (broadcastTo S5000x96 (shapeCast S5000x1 P3 shapeCasts_S5000x1_S5000x1) broadcasts_S5000x1_S5000x96))
          (broadcastTo S5000x96 (shapeCast S1x96 P4 shapeCasts_S1x96_S1x96) broadcasts_S1x96_S5000x96))
        0x00000000#32 reduces_S5000x96_S5000 (.inl rfl) rfl (ix1 y0)
      = ∑ l : Fin 96, P2 (ix2 y0 l) * P3 (ix2 y0 (0 : Fin 1)) * P4 (ix2 (0 : Fin 1) l) := by
  refine (Ideal.multiReduction_add_single _ _ reduces_S5000x96_S5000 (.inl rfl) rfl (ix1 y0)).trans ?_
  show ∑ l : Fin 96, _ = _
  refine Finset.sum_congr rfl fun l _ => ?_
  rw [lift_row, shapeCast_self]
  show P2 (ix2 y0 l) * broadcastTo S5000x96 (shapeCast S5000x1 P3 shapeCasts_S5000x1_S5000x1) broadcasts_S5000x1_S5000x96 (ix2 y0 l)
      * broadcastTo S5000x96 (shapeCast S1x96 P4 shapeCasts_S1x96_S1x96) broadcasts_S1x96_S5000x96 (ix2 y0 l) = _
  rw [colBroadcast_at, rowBroadcast_at]

/-! ## The stored block -/

/-- What the body leaves at row `y0`, column `y1` of its output block. -/
theorem E6_at (P0 : Vec Ideal S5000x96 .f32) (P1 : Vec Ideal S1x96 .f32) (P2 : Vec Ideal S5000x96 .f32)
    (P3 : Vec Ideal S5000x1 .f32) (P4 : Vec Ideal S1x96 .f32) (P5 : Vec Ideal S5000x96 .f32) (y0 : Fin 5000) (y1 : Fin 96) :
    Value.E6 (F := Ideal) P0 P1 P2 P3 P4 P5 (ix2 y0 y1)
      = Ideal.logistic ((∑ l : Fin 96, P0 (ix2 y0 l) * P1 (ix2 (0 : Fin 1) l))
            + ∑ l : Fin 96, P2 (ix2 y0 l) * P3 (ix2 y0 (0 : Fin 1)) * P4 (ix2 (0 : Fin 1) l))
          * (P2 (ix2 y0 y1) * P3 (ix2 y0 (0 : Fin 1))) + P5 (ix2 y0 y1) := by
  unfold Value.E6
  simp only [ix6_0_ix2, ix6_1_ix2, ix6_2_ix2, ix6_3_ix2, ix6_4_ix2]
  exact congrArg₂ (fun s1 s2 : EReal => Ideal.logistic (s1 + s2) * (P2 (ix2 y0 y1) * P3 (ix2 y0 (0 : Fin 1))) + P5 (ix2 y0 y1))
    (featSum_at P0 P1 y0) (aggSum_at P2 P3 P4 y0)

end Cert.KernelIdeal.Block

end
-- ==== Proof.KernelArray.lean ====
/-
  From the kernel's blocks to its result array, at the ideal instance.

  The grid has ten points; point `t` stages rows `5000·t … 5000·t + 4999` of the features, of the aggregated rows, of
  the degree scale and of the residual, and the whole of each half of the weight row, and writes back the same rows of
  the result.  Row `y0` of the block is node row `5000·t + y0`, so what a point writes back is its block of ONE function of
  the whole arrays, the gate function; the ten blocks fill the 50000 rows (row `r` lies in block `r / 5000`).
-/
import proofs.«154453_j26834955666032_2_alg».proof.Proof.Gen.KernelIdeal.Value
import proofs.«154453_j26834955666032_2_alg».proof.Proof.KernelBlock
import proofs.«154453_j26834955666032_2_alg».proof.Proof.GateSpec
import Idealize.ShloMosaic.Lib.ValueIdx
import Idealize.ShloMosaic.Lib.Pipeline.Value

set_option maxRecDepth 16384

noncomputable section

namespace Cert.KernelIdeal.Arr

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the ten grid points: the four row-blocked inputs and the output sit at block row `t`,
    the two halves of the weight row at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Grid point `t`'s row `a` is node row `5000·t + a`. -/
def row (t : Fin cfg0.N) (a : Fin 5000) : Fin 50000 :=
  ⟨t.val * 5000 + a.val, by have ht : t.val < 10 := lt_of_lt_of_eq t.isLt N_0; have := a.isLt; omega⟩

/-! ## Each window's block at a point, read off its array -/

theorem emb0 (t : Fin cfg0.N) (a : Fin 5000) (b : Fin 96) : ((cfg0.win 0).blk t).view.emb (ix2 a b) = ix2 (row t a) b := by
  obtain ⟨e00, e01, -⟩ := idx_facts t
  funext d; apply Fin.ext
  match d with
  | ⟨0, _⟩ => show win0_0.index t (0 : Fin 2) * 5000 + 1 * a.val = t.val * 5000 + a.val; omega
  | ⟨1, _⟩ => show win0_0.index t (1 : Fin 2) * 96 + 1 * b.val = b.val; omega

theorem emb1 (t : Fin cfg0.N) (a : Fin 5000) (b : Fin 96) : ((cfg0.win 1).blk t).view.emb (ix2 a b) = ix2 (row t a) b := by
  obtain ⟨-, -, e10, e11, -⟩ := idx_facts t
  funext d; apply Fin.ext
  match d with
  | ⟨0, _⟩ => show win0_1.index t (0 : Fin 2) * 5000 + 1 * a.val = t.val * 5000 + a.val; omega
  | ⟨1, _⟩ => show win0_1.index t (1 : Fin 2) * 96 + 1 * b.val = b.val; omega

theorem emb2 (t : Fin cfg0.N) (a : Fin 5000) (z : Fin 1) : ((cfg0.win 2).blk t).view.emb (ix2 a z) = ix2 (row t a) (0 : Fin 1) := by
  obtain ⟨-, -, -, -, e20, e21, -⟩ := idx_facts t
  funext d; apply Fin.ext
  match d with
  | ⟨0, _⟩ => show win0_2.index t (0 : Fin 2) * 5000 + 1 * a.val = t.val * 5000 + a.val; omega
  | ⟨1, _⟩ => show win0_2.index t (1 : Fin 2) * 1 + 1 * z.val = 0; have := z.isLt; omega

theorem emb3 (t : Fin cfg0.N) (a : Fin 5000) (b : Fin 96) : ((cfg0.win 3).blk t).view.emb (ix2 a b) = ix2 (row t a) b := by
  obtain ⟨-, -, -, -, -, -, e30, e31, -⟩ := idx_facts t
  funext d; apply Fin.ext
  match d with
  | ⟨0, _⟩ => show win0_3.index t (0 : Fin 2) * 5000 + 1 * a.val = t.val * 5000 + a.val; omega
  | ⟨1, _⟩ => show win0_3.index t (1 : Fin 2) * 96 + 1 * b.val = b.val; omega

theorem emb4 (t : Fin cfg0.N) (z : Fin 1) (b : Fin 96) : ((cfg0.win 4).blk t).view.emb (ix2 z b) = ix2 (0 : Fin 1) b := by
  obtain ⟨-, -, -, -, -, -, -, -, e40, e41, -⟩ := idx_facts t
  funext d; apply Fin.ext
  match d with
  | ⟨0, _⟩ => show win0_4.index t (0 : Fin 2) * 1 + 1 * z.val = 0; have := z.isLt; omega
  | ⟨1, _⟩ => show win0_4.index t (1 : Fin 2) * 96 + 1 * b.val = b.val; omega

theorem emb5 (t : Fin cfg0.N) (z : Fin 1) (b : Fin 96) : ((cfg0.win 5).blk t).view.emb (ix2 z b) = ix2 (0 : Fin 1) b := by
  obtain ⟨-, -, -, -, -, -, -, -, -, -, e50, e51, -⟩ := idx_facts t
  funext d; apply Fin.ext
  match d with
  | ⟨0, _⟩ => show win0_5.index t (0 : Fin 2) * 1 + 1 * z.val = 0; have := z.isLt; omega
  | ⟨1, _⟩ => show win0_5.index t (1 : Fin 2) * 96 + 1 * b.val = b.val; omega

theorem emb6 (t : Fin cfg0.N) (a : Fin 5000) (b : Fin 96) : ((cfg0.win 6).blk t).view.emb (ix2 a b) = ix2 (row t a) b := by
  obtain ⟨-, -, -, -, -, -, -, -, -, -, -, -, e60, e61⟩ := idx_facts t
  funext d; apply Fin.ext
  match d with
  | ⟨0, _⟩ => show win0_6.index t (0 : Fin 2) * 5000 + 1 * a.val = t.val * 5000 + a.val; omega
  | ⟨1, _⟩ => show win0_6.index t (1 : Fin 2) * 96 + 1 * b.val = b.val; omega

theorem blk0_at (c : Dev nD) (t : Fin cfg0.N) (a : Fin 5000) (b : Fin 96) :
    iblk m c 0 t (ix2 a b) = V m c (Pipeline.arrRef spec0 0) (ix2 (row t a) b) := by
  unfold iblk
  rw [View.read_apply, emb0]
  exact cast_eq _ _
theorem blk1_at (c : Dev nD) (t : Fin cfg0.N) (a : Fin 5000) (b : Fin 96) :
    iblk m c 1 t (ix2 a b) = V m c (Pipeline.arrRef spec0 1) (ix2 (row t a) b) := by
  unfold iblk
  rw [View.read_apply, emb1]
  exact cast_eq _ _
theorem blk2_at (c : Dev nD) (t : Fin cfg0.N) (a : Fin 5000) (z : Fin 1) :
    iblk m c 2 t (ix2 a z) = V m c (Pipeline.arrRef spec0 2) (ix2 (row t a) (0 : Fin 1)) := by
  unfold iblk
  rw [View.read_apply, emb2]
  exact cast_eq _ _
theorem blk3_at (c : Dev nD) (t : Fin cfg0.N) (a : Fin 5000) (b : Fin 96) :
    iblk m c 3 t (ix2 a b) = V m c (Pipeline.arrRef spec0 3) (ix2 (row t a) b) := by
  unfold iblk
  rw [View.read_apply, emb3]
  exact cast_eq _ _
theorem blk4_at (c : Dev nD) (t : Fin cfg0.N) (z : Fin 1) (b : Fin 96) :
    iblk m c 4 t (ix2 z b) = V m c (Pipeline.arrRef spec0 4) (ix2 (0 : Fin 1) b) := by
  unfold iblk
  rw [View.read_apply, emb4]
  exact cast_eq _ _
theorem blk5_at (c : Dev nD) (t : Fin cfg0.N) (z : Fin 1) (b : Fin 96) :
    iblk m c 5 t (ix2 z b) = V m c (Pipeline.arrRef spec0 5) (ix2 (0 : Fin 1) b) := by
  unfold iblk
  rw [View.read_apply, emb5]
  exact cast_eq _ _

/-! ## What a point writes back -/

/-- The kernel's result array as one function of the arrays the region finds: the gate function of the features, the
    aggregated rows, the degree scale, the residual and the two halves of the weight row (windows 0, 1, 2, 3, 4, 5). -/
abbrev G (c : Dev nD) : Cert.GateSpec.SNodes.Idx → EReal :=
  Cert.GateSpec.gate (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

/-- Point `t` writes back block `t` of `G`: rows `5000·t … 5000·t + 4999`. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  unfold out0_6
  simp only [View.ld_unit_zero (S := S5000x96) hz, View.ld_unit_zero (S := S5000x1) hz, View.ld_unit_zero (S := S1x96) hz]
  funext j
  obtain ⟨y0, y1, rfl⟩ : ∃ (y0 : Fin 5000) (y1 : Fin 96), j = ix2 y0 y1 := ⟨j 0, j 1, eq_ix2 j⟩
  rw [View.read_apply, emb6]
  refine Eq.trans ?_ (cast_eq _ _).symm
  refine (Value.canon6_eq (F := Ideal) (iblk m c 0 t) (iblk m c 4 t) (iblk m c 1 t) (iblk m c 2 t) (iblk m c 5 t) (iblk m c 3 t) (ix2 y0 y1)).trans ?_
  refine (Cert.KernelIdeal.Block.E6_at (iblk m c 0 t) (iblk m c 4 t) (iblk m c 1 t) (iblk m c 2 t) (iblk m c 5 t) (iblk m c 3 t) y0 y1).trans ?_
  unfold G
  rw [Cert.GateSpec.gate_ix2]
  unfold Cert.GateSpec.gateAt Cert.GateSpec.logit
  simp only [blk0_at m c t, blk1_at m c t, blk2_at m c t, blk3_at m c t, blk4_at m c t, blk5_at m c t]

/-! ## The ten blocks fill the array -/

/-- An index of the array is in point `t`'s block iff each coordinate is in the block's range on its axis. -/
theorem mem_blk (t : Fin cfg0.N) (i : S50000x96.Idx) :
    i ∈ ((cfg0.win 6).blk t).view.set ↔ ∀ a : Fin 2, win0_6.index t a * S5000x96.size a ≤ (i a).val
      ∧ (i a).val < win0_6.index t a * S5000x96.size a + S5000x96.size a := by
  show i ∈ ((View.whole main_v23).slice (win0_6.rect t)).set ↔ _
  rw [View.set_slice_whole, Rect.mem_set_unit]
  exact Iff.rfl

/-- Node row `i 0` lies in the block of point `(i 0) / 5000`. -/
theorem cover (i : S50000x96.Idx) : ∃ t : Fin cfg0.N, (cfg0.win 6).flush t = true ∧ i ∈ ((cfg0.win 6).blk t).view.set := by
  have hi0 : (i 0).val < 50000 := (i 0).isLt
  have hi1 : (i 1).val < 96 := (i 1).isLt
  let t : Fin cfg0.N := ⟨(i 0).val / 5000, by rw [show cfg0.N = 10 from N_0]; omega⟩
  have htv : t.val = (i 0).val / 5000 := rfl
  refine ⟨t, flush0_6 t, ?_⟩
  obtain ⟨-, -, -, -, -, -, -, -, -, -, -, -, e60, e61⟩ := idx_facts t
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 96 ≤ (i 1).val ∧ (i 1).val < win0_6.index t (1 : Fin 2) * 96 + 96; omega

/-- The kernel's result array after the run is `G`. -/
theorem final (c : Dev nD) : (dats m 0 c).arrAt 6 cfg0.N = G m c :=
  (dats m 0 c).arrAt_eq_of_cover 6 (G m c) (fun t _ => flushed_eq m c t) cover

end Cert.KernelIdeal.Arr

end
-- ==== Proof.LibScatterCount.lean ====
import Idealize.ShloMosaic.PureOps.Ideal
import Idealize.ShloMosaic.PureOps.Contract
noncomputable section
namespace Cert.LibScatterCount
open Idealize.ShloMosaic

/-- Folding the integer scatter step that adds one over a list of update positions: every
    element ends at its starting value plus (in 32-bit arithmetic) the number of positions of
    the list whose result index is that element. -/
theorem foldl_addi_one {s si u : Shape} (d : ScatterDims s si u) {w : Nat} (idx : IVec si w)
    (l : List (Fin u.numel)) (r : s.Idx → BitVec 32) (i : s.Idx) :
    (l.foldl (fun (r : s.Idx → BitVec 32) n =>
        match d.resultIdx? (u.rowMajor.symm n) idx with
        | some i => fun i' => if i' = i then IntOp.addi (r i) (1#32 : BitVec 32) else r i'
        | none => r) r) i
      = r i + BitVec.ofNat 32
          (l.countP fun n => decide (d.resultIdx? (u.rowMajor.symm n) idx = some i)) := by
  induction l generalizing r with
  | nil => simp
  | cons n l ih =>
    rw [List.foldl_cons, ih, List.countP_cons]
    cases hn : d.resultIdx? (u.rowMajor.symm n) idx with
    | none => simp
    | some k =>
      by_cases hik : i = k
      · subst hik
        simp only [if_true, decide_true, IntOp.addi]
        rw [BitVec.ofNat_add, BitVec.add_assoc, BitVec.add_comm (1#32 : BitVec 32)]
      · have hne : ¬ (some k = some i) := fun h => hik (Option.some.inj h).symm
        show (if i = k then IntOp.addi (r k) (1#32 : BitVec 32) else r i) + _ = _
        rw [if_neg hik, decide_eq_false hne]
        simp only [Bool.false_eq_true, if_false, Nat.add_zero]

/-- Counting the positions of `List.finRange N` that satisfy a predicate gives the cardinality
    of the corresponding filter of `Fin N`. -/
theorem countP_finRange_eq_card {N : Nat} (p : Fin N → Prop) [DecidablePred p] :
    (List.finRange N).countP (fun n => decide (p n)) = (Finset.univ.filter p).card := by
  unfold Finset.card
  rw [Finset.filter_val, ← Multiset.countP_eq_card_filter, Fin.univ_def]
  exact (Multiset.coe_countP _ _).symm

/-- A 32-bit word holding a natural number below `2 ^ 31` reads, signed, as that number. -/
theorem toInt_ofNat_of_lt {c : Nat} (hc : c < 2 ^ 31) : (BitVec.ofNat 32 c).toInt = (c : Int) := by
  have hmod : (BitVec.ofNat 32 c).toNat = c := by
    rw [BitVec.toNat_ofNat]; exact Nat.mod_eq_of_lt (by omega)
  rw [BitVec.toInt_eq_toNat_of_lt (by rw [hmod]; omega), hmod]

/-- Counting incoming updates with an integer scatter-add of ones into zeros and converting the
    count to a float gives, at the ideal instance, the float scatter-add of ones into zeros:
    both are, at every element, the number of update positions whose result index is that
    element. The bound on the number of update positions keeps the 32-bit count from wrapping
    into the sign bit. -/
theorem sitofp_scatter_ones {s si u : Shape} (d : ScatterDims s si u) {w : Nat} (idx : IVec si w) (hu : u.numel < 2 ^ 31) :
    sitofp (F := Ideal) .f32 (Host.scatter d IntOp.addi (fun _ => (0#32 : BitVec 32)) idx (fun _ => (1#32 : BitVec 32)))
      = Host.scatterAdd (F := Ideal) (φ := .f32) d (fun _ => (0 : EReal)) idx (fun _ => (1 : EReal)) := by
  funext i
  -- the number of update positions landing on `i`, over the multi-indices of the update shape
  have hcard : (Finset.univ.filter fun n : Fin u.numel => d.resultIdx? (u.rowMajor.symm n) idx = some i).card
      = (Finset.univ.filter fun j : u.Idx => d.resultIdx? j idx = some i).card :=
    Finset.card_equiv u.rowMajor.symm (fun n => by simp only [Finset.mem_filter, Finset.mem_univ, true_and])
  -- and it is at most the number of update positions
  have hle : (Finset.univ.filter fun j : u.Idx => d.resultIdx? j idx = some i).card ≤ u.numel := by
    rw [← hcard]
    exact (Finset.card_filter_le _ _).trans (by rw [Finset.card_univ, Fintype.card_fin])
  -- the integer side: the fold leaves the count, as a 32-bit word
  have hfold : Host.scatter d IntOp.addi (fun _ => (0#32 : BitVec 32)) idx (fun _ => (1#32 : BitVec 32)) i
      = BitVec.ofNat 32 (Finset.univ.filter fun j : u.Idx => d.resultIdx? j idx = some i).card := by
    refine (foldl_addi_one d idx (List.finRange u.numel) (fun _ => (0#32 : BitVec 32)) i).trans ?_
    rw [countP_finRange_eq_card (fun n : Fin u.numel => d.resultIdx? (u.rowMajor.symm n) idx = some i), hcard,
      BitVec.zero_add]
  show (((Host.scatter d IntOp.addi (fun _ => (0#32 : BitVec 32)) idx (fun _ => (1#32 : BitVec 32)) i).toInt : ℝ) : EReal)
      = (0 : EReal) + ∑ j ∈ Finset.univ.filter (fun j : u.Idx => d.resultIdx? j idx = some i), (1 : EReal)
  rw [hfold, toInt_ofNat_of_lt (lt_of_le_of_lt hle hu), Int.cast_natCast, EReal.coe_natCast, zero_add,
    Finset.sum_const, nsmul_one]

end Cert.LibScatterCount
end
-- ==== Proof.KernelHost.lean ====
/-
  The arrays the kernel's host code hands to its one region, and their agreement with the reference's stages.

  Before the region the host code computes, from the edge end points alone, the degree scale
  `max(deg, 1) ^ (-1/2)` (one value per node, kept as a column), scales the features by it, gathers the scaled rows at
  the edges' sources and adds them up at the edges' destinations (the aggregated rows), and cuts the weight row in two.
  The reference computes the same scale and the same aggregated rows by the same operations, with one difference:
  the kernel counts a node's incoming edges in 32-bit integers and converts the count, the reference adds up ones
  as floats.  Over the extended reals both are the number of edges whose destination is the node (there are 800000
  edges, far below 2^31), so the scale, and with it the aggregated rows, are the same arrays.
-/
import proofs.«154453_j26834955666032_2_alg».proof.Proof.Gen.KernelIdeal.Frame
import proofs.«154453_j26834955666032_2_alg».proof.Proof.Gen.ReferenceIdeal.Read
import proofs.«154453_j26834955666032_2_alg».proof.Proof.LibScatterCount
import proofs.«154453_j26834955666032_2_alg».proof.Proof.GateSpec
import Idealize.ShloMosaic.Lib.StableHlo.Run
import Idealize.ShloMosaic.Lib.IdealHost
import Idealize.ShloMosaic.Lib.Pipeline.Value
import Idealize.ShloMosaic.Lib.ValueIdx
import Idealize.ShloMosaic.PureOps.Ideal.Laws

noncomputable section

namespace Cert.KernelIdeal.Host

open Cert.KernelIdeal Cert.KernelIdeal.Gen Idealize.ShloMosaic Idealize.ShloMosaic.TcCoe Idealize.SL.Sem
open Idealize.ShloMosaic.ValueIdx Idealize.ShloMosaic.StableHlo

/-- Node rows by features. -/
abbrev Nodes : Type := (⟨S50000x96, .f32⟩ : BufTy).Contents (Elt Ideal)
/-- One value per node, as a column. -/
abbrev Col : Type := (⟨S50000x1, .f32⟩ : BufTy).Contents (Elt Ideal)
/-- One value per node. -/
abbrev PerNode : Type := (⟨S50000, .f32⟩ : BufTy).Contents (Elt Ideal)
/-- One end point per edge. -/
abbrev Edges : Type := (⟨S800000, .i32⟩ : BufTy).Contents (Elt Ideal)
/-- The weight row. -/
abbrev Weights : Type := (⟨S1x192, .f32⟩ : BufTy).Contents (Elt Ideal)

/-! ## The host functions -/

/-- A node's number of incoming edges, counted in 32-bit integers and converted. -/
def degInt (x4 : Edges) : PerNode :=
  sitofp (F := Ideal) .f32 (Host.scatter scatter_S50000_S800000x1_S800000_n_0_0_1 IntOp.addi
    (broadcastInDim S50000 ![] bcast_S_S50000 (constantI S_ 32 0#32))
    (broadcastInDim S800000x1 ![0] bcast_S800000_S800000x1_0 x4)
    (broadcastInDim S800000 ![] bcast_S_S800000 (constantI S_ 32 1#32)))

/-- The degree scale `max(deg, 1) ^ (-1/2)`, as a column. -/
def scaleOf (deg : PerNode) : Col :=
  broadcastInDim S50000x1 ![0] bcast_S50000_S50000x1_0
    (Host.powf (F := Ideal)
      (maximumf (broadcastInDim S50000 ![] bcast_S_S50000 (id (constant (F := Ideal) S_ .f32 0x3F800000#32))) deg)
      (broadcastInDim S50000 ![] bcast_S_S50000 (constant (F := Ideal) S_ .f32 0xBF000000#32)))

/-- The aggregated rows: the features scaled by `nrm`, gathered at the edges' sources (a negative source counted from
    the end), added up at the edges' destinations. -/
def aggOf (x0 : Nodes) (nrm : Col) (x3 x4 : Edges) : Nodes :=
  Host.scatterAdd (F := Ideal) scatter_S50000x96_S800000x1_S800000x96_1_0_0_1
    (broadcastInDim S50000x96 ![] bcast_S_S50000x96 (constant (F := Ideal) S_ .f32 0x00000000#32))
    (broadcastInDim S800000x1 ![0] bcast_S800000_S800000x1_0 x4)
    (Host.gather gather_S50000x96_S800000x1_S800000x96_1_0_n_n_0_1_196
      (mulf x0 (broadcastInDim S50000x96 ![0, 1] bcast_S50000x1_S50000x96_0_1 nrm))
      (broadcastInDim S800000x1 ![0] bcast_S800000_S800000x1_0
        (select (cmpi .slt x3 (broadcastInDim S800000 ![] bcast_S_S800000 (constantI S_ 32 0#32)))
          (addi x3 (broadcastInDim S800000 ![] bcast_S_S800000 (constantI S_ 32 50000#32))) x3)))

/-! ## Agreement with the reference's stages -/

/-- The converted integer count is the reference's float count. -/
theorem deg_agree (x4 : Edges) : degInt x4 = Cert.ReferenceIdeal.Read.val_main_v3 (F := Ideal) x4 := by
  have h := Cert.LibScatterCount.sitofp_scatter_ones scatter_S50000_S800000x1_S800000_n_0_0_1
    (broadcastInDim S800000x1 ![0] bcast_S800000_S800000x1_0 x4) (by decide)
  have h0 : (fun _ => (0 : EReal)) = Cert.ReferenceIdeal.Read.val_main_v1 (F := Ideal) := funext fun _ => Ideal.ofBits_zero_f32.symm
  have h1 : (fun _ => (1 : EReal)) = Cert.ReferenceIdeal.Read.val_main_v0 (F := Ideal) := funext fun _ => Ideal.ofBits_one_f32.symm
  unfold degInt Cert.ReferenceIdeal.Read.val_main_v3 Cert.ReferenceIdeal.Read.val_main_v2
  rw [← h0, ← h1]
  exact h

/-- So the degree scale is the reference's. -/
theorem scale_agree (x4 : Edges) : scaleOf (degInt x4) = Cert.ReferenceIdeal.Read.val_main_v7 (F := Ideal) x4 := by
  rw [deg_agree]
  unfold scaleOf Cert.ReferenceIdeal.Read.val_main_v7 Cert.ReferenceIdeal.Read.val_main_v6 Cert.ReferenceIdeal.Read.val_main_v5 Cert.ReferenceIdeal.Read.val_main_cst_2 Cert.ReferenceIdeal.Read.val_main_v4
    Cert.ReferenceIdeal.Read.val_main_call0_v1 Cert.ReferenceIdeal.Read.val_main_call0_v0 Cert.ReferenceIdeal.Read.val_main_cst_1
  rfl

/-- And the aggregated rows over the reference's scale are the reference's aggregated rows. -/
theorem agg_agree (x0 : Nodes) (x3 x4 : Edges) :
    aggOf x0 (Cert.ReferenceIdeal.Read.val_main_v7 (F := Ideal) x4) x3 x4 = Cert.ReferenceIdeal.Read.val_main_v19 (F := Ideal) x0 x3 x4 := by
  unfold aggOf Cert.ReferenceIdeal.Read.val_main_v19 Cert.ReferenceIdeal.Read.val_main_v18 Cert.ReferenceIdeal.Read.val_main_v17 Cert.ReferenceIdeal.Read.val_main_cst_4 Cert.ReferenceIdeal.Read.val_main_v16
    Cert.ReferenceIdeal.Read.val_main_v15 Cert.ReferenceIdeal.Read.val_main_v14 Cert.ReferenceIdeal.Read.val_main_v13 Cert.ReferenceIdeal.Read.val_main_v12 Cert.ReferenceIdeal.Read.val_main_c_3 Cert.ReferenceIdeal.Read.val_main_v11
    Cert.ReferenceIdeal.Read.val_main_v10 Cert.ReferenceIdeal.Read.val_main_c Cert.ReferenceIdeal.Read.val_main_v9 Cert.ReferenceIdeal.Read.val_main_v8
  rfl

end Cert.KernelIdeal.Host

end
-- ==== Proof.KernelWindows.lean ====
/-
  What the region's six input windows hold when the region starts, as functions of the program's arguments.

  The features and the residual are the arguments themselves (no host operation writes them).  The degree scale, the
  aggregated rows and the two halves of the weight row are what the host operations before the region compute; read
  back through those operations they are the host functions `scaleOf (degInt dst)`, `aggOf …` and the two slices of
  the weight row, and a slice at offset 0 (offset 96) of the 192-entry row, read at entry `l`, is the row's entry `l`
  (entry `96 + l`).
-/
import proofs.«154453_j26834955666032_2_alg».proof.Proof.Gen.KernelIdeal.Frame
import proofs.«154453_j26834955666032_2_alg».proof.Proof.KernelHost
import proofs.«154453_j26834955666032_2_alg».proof.Proof.GateSpec
import Idealize.ShloMosaic.Lib.StableHlo.Run
import Idealize.ShloMosaic.Lib.Pipeline.Value
import Idealize.ShloMosaic.Lib.ValueIdx

set_option maxRecDepth 16384

noncomputable section

namespace Cert.KernelIdeal.Win

open Cert.KernelIdeal Cert.KernelIdeal.Gen Cert.KernelIdeal.Host Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The host-written arrays, read back through the host operations -/

/-- The degree scale the region finds. -/
theorem V_scale (c : Dev nD) :
    (V m c main_v8 : S50000x1.Idx → EReal) = scaleOf (degInt (m ((c : Thread nD τ).loc main_arg4))) := by
  unfold scaleOf degInt
  dsimp only [V]
  simp only [hostOps0, hostOps0_1, hostOps0_2, List.flatten_cons, List.flatten_nil, List.append_nil, List.cons_append, List.nil_append]
  after_results_simp
  rfl

/-- The aggregated rows the region finds. -/
theorem V_agg (c : Dev nD) :
    (V m c main_v20 : S50000x96.Idx → EReal)
      = aggOf (m ((c : Thread nD τ).loc main_arg0)) (scaleOf (degInt (m ((c : Thread nD τ).loc main_arg4))))
          (m ((c : Thread nD τ).loc main_arg3)) (m ((c : Thread nD τ).loc main_arg4)) := by
  unfold aggOf scaleOf degInt
  dsimp only [V]
  simp only [hostOps0, hostOps0_1, hostOps0_2, List.flatten_cons, List.flatten_nil, List.append_nil, List.cons_append, List.nil_append]
  after_results_simp
  rfl

/-- The first half of the weight row, as the host slices it. -/
theorem V_half1 (c : Dev nD) :
    (V m c main_v21 : S1x96.Idx → EReal)
      = extractStridedSlice S1x96 ![0, 0] (m ((c : Thread nD τ).loc main_arg2)) slices_S1x192_S1x96_0_0 := by
  dsimp only [V]
  simp only [hostOps0, hostOps0_1, hostOps0_2, List.flatten_cons, List.flatten_nil, List.append_nil, List.cons_append, List.nil_append]
  after_results_simp

/-- The second half of the weight row, as the host slices it. -/
theorem V_half2 (c : Dev nD) :
    (V m c main_v22 : S1x96.Idx → EReal)
      = extractStridedSlice S1x96 ![0, 96] (m ((c : Thread nD τ).loc main_arg2)) slices_S1x192_S1x96_0_96 := by
  dsimp only [V]
  simp only [hostOps0, hostOps0_1, hostOps0_2, List.flatten_cons, List.flatten_nil, List.append_nil, List.cons_append, List.nil_append]
  after_results_simp

/-- The slice at offset 0 is the first half of the row. -/
theorem slice_lo (a : Weights) : extractStridedSlice S1x96 ![0, 0] a slices_S1x192_S1x96_0_0 = Cert.GateSpec.aLo a := by
  funext j
  obtain ⟨z, l, rfl⟩ : ∃ (z : Fin 1) (l : Fin 96), j = ix2 z l := ⟨j 0, j 1, eq_ix2 j⟩
  rw [Cert.GateSpec.aLo_ix2]
  exact extractStridedSlice_apply ![0, 0] a slices_S1x192_S1x96_0_0 (ix2 z l) (ix2 (0 : Fin 1) (Cert.GateSpec.lo l)) (fun d => match d with
    | ⟨0, _⟩ => by show (0 : Nat) = 0 + z.val; have := z.isLt; omega
    | ⟨1, _⟩ => by show l.val = 0 + l.val; omega)

/-- The slice at offset 96 is the second half of the row. -/
theorem slice_hi (a : Weights) : extractStridedSlice S1x96 ![0, 96] a slices_S1x192_S1x96_0_96 = Cert.GateSpec.aHi a := by
  funext j
  obtain ⟨z, l, rfl⟩ : ∃ (z : Fin 1) (l : Fin 96), j = ix2 z l := ⟨j 0, j 1, eq_ix2 j⟩
  rw [Cert.GateSpec.aHi_ix2]
  exact extractStridedSlice_apply ![0, 96] a slices_S1x192_S1x96_0_96 (ix2 z l) (ix2 (0 : Fin 1) (Cert.GateSpec.hi l)) (fun d => match d with
    | ⟨0, _⟩ => by show (0 : Nat) = 0 + z.val; have := z.isLt; omega
    | ⟨1, _⟩ => by show 96 + l.val = 96 + l.val; rfl)

/-! ## The six windows' arrays -/

theorem W0 (c : Dev nD) : V m c (Pipeline.arrRef spec0 0) = m ((c : Thread nD τ).loc main_arg0) := V_main_arg0 m c
theorem W3 (c : Dev nD) : V m c (Pipeline.arrRef spec0 3) = m ((c : Thread nD τ).loc main_arg1) := V_main_arg1 m c
theorem W2 (c : Dev nD) : V m c (Pipeline.arrRef spec0 2) = scaleOf (degInt (m ((c : Thread nD τ).loc main_arg4))) := V_scale m c
theorem W1 (c : Dev nD) : V m c (Pipeline.arrRef spec0 1)
    = aggOf (m ((c : Thread nD τ).loc main_arg0)) (scaleOf (degInt (m ((c : Thread nD τ).loc main_arg4))))
        (m ((c : Thread nD τ).loc main_arg3)) (m ((c : Thread nD τ).loc main_arg4)) := V_agg m c
theorem W4 (c : Dev nD) : V m c (Pipeline.arrRef spec0 4) = Cert.GateSpec.aLo (m ((c : Thread nD τ).loc main_arg2)) :=
  (V_half1 m c).trans (slice_lo _)
theorem W5 (c : Dev nD) : V m c (Pipeline.arrRef spec0 5) = Cert.GateSpec.aHi (m ((c : Thread nD τ).loc main_arg2)) :=
  (V_half2 m c).trans (slice_hi _)

end Cert.KernelIdeal.Win

end
-- ==== Proof.KernelValue.lean ====
/-
  The kernel's run, with its result named.

  After the run the kernel's result array is the gate function of the region's input arrays (the ten blocks fill it);
  those arrays are the arguments themselves, the host-computed degree scale and aggregated rows, and the two halves of
  the weight row; and the scale and the aggregated rows agree with the reference's stages.  So the result is the gate
  function of the arguments through the reference's own scale and aggregated rows — the term the reference's result is
  also shown equal to.
-/
import proofs.«154453_j26834955666032_2_alg».proof.Proof.Gen.KernelIdeal.Value
import proofs.«154453_j26834955666032_2_alg».proof.Proof.Gen.ReferenceIdeal.Read
import proofs.«154453_j26834955666032_2_alg».proof.Proof.KernelArray
import proofs.«154453_j26834955666032_2_alg».proof.Proof.KernelWindows
import proofs.«154453_j26834955666032_2_alg».proof.Proof.KernelHost
import proofs.«154453_j26834955666032_2_alg».proof.Proof.GateSpec

noncomputable section

namespace Cert.KernelIdeal.Final

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The layer's result as a function of the five arguments: the gate function over the reference's aggregated rows and
    degree scale. -/
def result (x0 x1 : Cert.KernelIdeal.Host.Nodes) (x2 : Cert.KernelIdeal.Host.Weights) (x3 x4 : Cert.KernelIdeal.Host.Edges) :
    Cert.GateSpec.SNodes.Idx → EReal :=
  Cert.GateSpec.gate x0 (Cert.ReferenceIdeal.Read.val_main_v19 (F := Ideal) x0 x3 x4) (Cert.ReferenceIdeal.Read.val_main_v7 (F := Ideal) x4) x1
    (Cert.GateSpec.aLo x2) (Cert.GateSpec.aHi x2)

/-- The kernel's result array after the run. -/
theorem result_eq (c : Dev nD) :
    (dats m 0 c).arrAt 6 cfg0.N = result (m ((c : Thread nD τ).loc main_arg0)) (m ((c : Thread nD τ).loc main_arg1)) (m ((c : Thread nD τ).loc main_arg2)) (m ((c : Thread nD τ).loc main_arg3)) (m ((c : Thread nD τ).loc main_arg4)) := by
  rw [Cert.KernelIdeal.Arr.final]
  unfold Cert.KernelIdeal.Arr.G result
  rw [Cert.KernelIdeal.Win.W0, Cert.KernelIdeal.Win.W1, Cert.KernelIdeal.Win.W2, Cert.KernelIdeal.Win.W3,
    Cert.KernelIdeal.Win.W4, Cert.KernelIdeal.Win.W5, Cert.KernelIdeal.Host.scale_agree, Cert.KernelIdeal.Host.agg_agree]

/-- Every weakly fair execution of the idealized kernel ends with the result array at `result` of the arguments, the
    arguments unchanged. -/
theorem run : θ_run defs (onTc (τ := τ) (main (F := Ideal))) ⟨m, fun _ => 0, ρ⟩ fun r => ∀ c : Dev nD,
      r.2.mem ((c : Thread nD τ).loc main_v23) = result (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_eq m c), (h c).2⟩) (Cert.KernelIdeal.Value.run_blocks m ρ)

end Cert.KernelIdeal.Final

end
-- ==== Proof.lean ====
/-
  The certificate of a graph-convolution layer with an attention gate and a residual.

  Both programs take node features, residual features, a 192-entry weight row and the 800000 edges' sources and
  destinations.  With `deg r` the number of edges into node `r` and `nrm r = max(deg r, 1) ^ (-1/2)`, the aggregated row
  of node `r` is the sum, over the edges into `r`, of the source's feature row scaled by the source's `nrm`; the
  layer returns, at node `r` and column `q`,
      logistic(∑ₗ feat r l · a l + ∑ₗ (agg r l · nrm r) · a (96 + l)) · (agg r q · nrm r) + init r q.
  The reference computes all of it with host operations: the degree as a float sum of ones, the logit as one
  contraction of the joined row `[feat r | agg r · nrm r]` with the weight row, the logistic function as
  `1 / (1 + exp (-x))`.  The kernel computes the degree as an integer count which it converts, the scale and the
  aggregated rows with the same host operations, and the gate and the residual in one grid of ten row blocks, with
  the logit as two lane sums over the two halves of the weight row and the logistic function as one operation.

  Over the extended reals the two results are one array.  The integer count converted and the float sum of ones
  are both the number of edges into the node (Proof/LibScatterCount.lean, Proof/KernelHost.lean), so the scale and the
  aggregated rows agree; a sum over 192 positions is the sum over its two halves, in any commutative additive monoid
  (Proof/GateSpec.lean); and `1 / (1 + exp (-x))` is the logistic function by its definition at every extended real
  (Proof/RefGate.lean).  No step uses finiteness of the inputs, so the precondition is never opened.

  The kernel's side: one grid point's block (Proof/KernelBlock.lean), the ten blocks as one array
  (Proof/KernelArray.lean), the arrays the host code hands the region (Proof/KernelWindows.lean), and the run with its
  result named (Proof/KernelValue.lean).  The frames of the two kernel programs and the reference's run are the
  generated modules'; the idealization rewrote nothing, so its preservation claim is `True`.
-/
import proofs.«154453_j26834955666032_2_alg».proof.Defs
import proofs.«154453_j26834955666032_2_alg».proof.Proof.Gen.Kernel
import proofs.«154453_j26834955666032_2_alg».proof.Proof.Gen.Kernel.Skeleton
import proofs.«154453_j26834955666032_2_alg».proof.Proof.Gen.Kernel.Launch
import proofs.«154453_j26834955666032_2_alg».proof.Proof.Gen.Kernel.Points
import proofs.«154453_j26834955666032_2_alg».proof.Proof.Gen.Kernel.Frame
import proofs.«154453_j26834955666032_2_alg».proof.Proof.Gen.KernelIdeal
import proofs.«154453_j26834955666032_2_alg».proof.Proof.Gen.KernelIdeal.Skeleton
import proofs.«154453_j26834955666032_2_alg».proof.Proof.Gen.KernelIdeal.Launch
import proofs.«154453_j26834955666032_2_alg».proof.Proof.Gen.KernelIdeal.Points
import proofs.«154453_j26834955666032_2_alg».proof.Proof.Gen.KernelIdeal.Frame
import proofs.«154453_j26834955666032_2_alg».proof.Proof.Gen.ReferenceIdeal
import proofs.«154453_j26834955666032_2_alg».proof.Proof.Gen.Pre_finite_inputs
import proofs.«154453_j26834955666032_2_alg».proof.Proof.Gen.KernelIdeal.Value
import proofs.«154453_j26834955666032_2_alg».proof.Proof.Gen.ReferenceIdeal.Run
import proofs.«154453_j26834955666032_2_alg».proof.Proof.Gen.ReferenceIdeal.Read
import proofs.«154453_j26834955666032_2_alg».proof.Proof.GateSpec
import proofs.«154453_j26834955666032_2_alg».proof.Proof.RefGate
import proofs.«154453_j26834955666032_2_alg».proof.Proof.KernelValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- The idealized kernel runs and leaves its arguments as they were. -/
theorem frame_kernelIdeal : Cert.frame_KernelIdeal := fun m ρ _ => Cert.KernelIdeal.Gen.frame m ρ

/-- The idealized reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the gate function of the arguments, over the
    same aggregated rows and degree scale: the kernel by its run, the reference by its run read back stage by stage. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefGate.ref_is_gate,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
